-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S128 .f32) (main_arg8 : FVec F S128x10 .f32) (main_arg9 : FVec F S10 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg8
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x128 : Shape := ⟨2, ![1, 128]⟩
abbrev S1x10 : Shape := ⟨2, ![1, 10]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩
abbrev S10000x10 : Shape := ⟨2, ![10000, 10]⟩
abbrev S1000x10 : Shape := ⟨2, ![1000, 10]⟩
abbrev S1000 : Shape := ⟨1, ![1000]⟩
abbrev S1000x1 : Shape := ⟨2, ![1000, 1]⟩

abbrev nBuf : Space → Nat
  | .hbm => 18
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x10, .f32⟩
  | .hbm, ⟨14, _⟩ => ⟨S10000x128, .bf16⟩
  | .hbm, ⟨15, _⟩ => ⟨S10000x10000, .bf16⟩
  | .hbm, ⟨16, _⟩ => ⟨S10000x128, .bf16⟩
  | .hbm, ⟨17, _⟩ => ⟨S10000x10, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S400x128, .bf16⟩
  | .local _ .vmem, ⟨7, _⟩ => ⟨S400x128, .bf16⟩
  | .local _ .vmem, ⟨8, _⟩ => ⟨S400x10000, .bf16⟩
  | .local _ .vmem, ⟨9, _⟩ => ⟨S400x10000, .bf16⟩
  | .local _ .vmem, ⟨10, _⟩ => ⟨S1000x10000, .bf16⟩
  | .local _ .vmem, ⟨11, _⟩ => ⟨S1000x10000, .bf16⟩
  | .local _ .vmem, ⟨12, _⟩ => ⟨S10000x128, .bf16⟩
  | .local _ .vmem, ⟨13, _⟩ => ⟨S1x128, .f32⟩
  | .local _ .vmem, ⟨14, _⟩ => ⟨S128x128, .f32⟩
  | .local _ .vmem, ⟨15, _⟩ => ⟨S1000x128, .bf16⟩
  | .local _ .vmem, ⟨16, _⟩ => ⟨S1000x128, .bf16⟩
  | .local _ .vmem, ⟨17, _⟩ => ⟨S1000x10000, .bf16⟩
  | .local _ .vmem, ⟨18, _⟩ => ⟨S1000x10000, .bf16⟩
  | .local _ .vmem, ⟨19, _⟩ => ⟨S10000x128, .bf16⟩
  | .local _ .vmem, ⟨20, _⟩ => ⟨S1x128, .f32⟩
  | .local _ .vmem, ⟨21, _⟩ => ⟨S128x10, .f32⟩
  | .local _ .vmem, ⟨22, _⟩ => ⟨S1x10, .f32⟩
  | .local _ .vmem, ⟨23, _⟩ => ⟨S1000x10, .f32⟩
  | .local _ .vmem, ⟨24, _⟩ => ⟨S1000x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S128_S1x128 : S128.ShapeCasts S1x128
  shapeCasts_S10_S1x10 : S10.ShapeCasts S1x10
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  shapeCasts_S10000x128_S10000x128 : S10000x128.ShapeCasts S10000x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  packedbf16_S1000x128_S1000x128_0_0 : (Rect.unit (s := S1000x128) ![0, 0] S1000x128.size inb_S1000x128_S1000x128_0_0).PackedRows (EltTy.packing .bf16)
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  reduces_S1000x10_S1000 : S1000x10.Reduces [1] S1000
  shapeCasts_S1000_S1000x1 : S1000.ShapeCasts S1000x1
  broadcasts_S1000x1_S1000x10 : S1000x1.Broadcasts S1000x10
  inb_S1000x10_S1000x10_0_0 : ∀ a, (![0, 0] : Fin 2 → Nat) a + S1000x10.size a ≤ S1000x10.size a
  h_S1000x10 : 0 < S1000x10.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  dot_S1000x128_S128x10_S1000x10_1_0_0_1_n_n_wf : DotDims.WF S1000x128 S128x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .bf16 = 32 ∨ (Rect.block (s := S10000x128) S400x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .bf16 = 32 ∨ (Rect.block (s := S10000x128) S1000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x10.size a ≤ S10000x10.size a
  hwx2_5 : ∀ i : grid2.Coords, EltTy.bits .f32 = 32 ∨ (Rect.block (s := S10000x10) S1000x10.size (cc2_transform_5 i) (hinb2_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S400x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x128 : Shape := ⟨2, ![1, 128]⟩
abbrev S_ : Shape := ⟨0, ![]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 53
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x10, .f32⟩
  | .hbm, ⟨35, _⟩ => ⟨S1x10, .f32⟩
  | .hbm, ⟨36, _⟩ => ⟨S10000x10, .f32⟩
  | .hbm, ⟨37, _⟩ => ⟨S10000x10, .f32⟩
  | .hbm, ⟨38, _⟩ => ⟨S_, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S10000x1, .f32⟩
  | .hbm, ⟨44, _⟩ => ⟨S10000x10, .f32⟩
  | .hbm, ⟨45, _⟩ => ⟨S10000x10, .f32⟩
  | .hbm, ⟨46, _⟩ => ⟨S10000x10, .f32⟩
  | .hbm, ⟨47, _⟩ => ⟨S_, .f32⟩
  | .hbm, ⟨48, _⟩ => ⟨S10000, .f32⟩
  | .hbm, ⟨49, _⟩ => ⟨S10000x1, .f32⟩
  | .hbm, ⟨50, _⟩ => ⟨S10000x1, .f32⟩
  | .hbm, ⟨51, _⟩ => ⟨S10000x10, .f32⟩
  | .hbm, ⟨52, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call3_cst : Ref sig .tc := ⟨.hbm, 38, rfl⟩
abbrev main_call3_v0 : Ref sig .tc := ⟨.hbm, 39, rfl⟩
abbrev main_call3_cst_0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_cst_1 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_v22 : Ref sig .tc := ⟨.hbm, 52, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.GcnSpec.lean ====
/-
  The function both programs compute: a three-layer graph convolution followed by a linear layer and a
  row-wise log-softmax, entry by entry over the extended reals.

  With `x : [10000, 128]` the node features, `adj : [10000, 10000]` the dense adjacency, `W1 W2 W3 : [128, 128]`,
  `b1 b2 b3 : [128]`, `Wl : [128, 10]`, `bl : [10]`:
    z0 = x · W1,
    h1 = max (adj · z0 + b1) 0,   z1 = h1 · W2,
    h2 = max (adj · z1 + b2) 0,   z2 = h2 · W3,
    h3 = max (adj · z2 + b3) 0,   logits = h3 · Wl + bl,
    out (r, c) = (logits (r, c) − M r) − log (Σ_c' exp (logits (r, c') − M r)),   M r = max_c' logits (r, c').
  Node `r`'s entries depend on the adjacency only through its row `r`, so every layer is stated for ONE row of
  the adjacency: the same definitions then serve a row of a block of rows and a row of the whole array.
  Every product of matrices is the plain sum over the contracted coordinate, every sum is taken in one fixed
  order (no regrouping), and the two float literals the programs share — the zero of the clamp and the minus
  infinity a row maximum starts from — stay as their binary words.
-/
import Idealize.ShloMosaic.PureOps.Ideal
import Idealize.ShloMosaic.Lib.ValueIdx

noncomputable section

open Idealize.ShloMosaic Idealize.ShloMosaic.ValueIdx

namespace Cert.Gcn

/-- The clamp's lower bound: the float literal `0.0`, as its word. -/
abbrev zeroW : EReal := Ideal.ofBits .f32 0x00000000#32
/-- What a row maximum starts from: the float literal `-inf`, as its word. -/
abbrev negInfW : EReal := Ideal.ofBits .f32 0xFF800000#32

/-- An `[a, b]` array of extended reals. -/
abbrev Mat (a b : Nat) := (⟨2, ![a, b]⟩ : Shape).Idx → EReal
/-- A length-`a` array of extended reals. -/
abbrev Vct (a : Nat) := (⟨1, ![a]⟩ : Shape).Idx → EReal

/-- A dense array times a weight matrix: `(x · W) (j, k) = Σ_i x (j, i) · W (i, k)`. -/
def proj {n : Nat} (x : Mat 10000 128) (W : Mat 128 n) (j : Fin 10000) (k : Fin n) : EReal :=
  ∑ i : Fin 128, x (ix2 j i) * W (ix2 i k)

/-- One node's activation: aggregate `z` along the node's adjacency row, add the bias, clamp below at zero. -/
def actRow (arow : Fin 10000 → EReal) (z : Fin 10000 → Fin 128 → EReal) (b : Fin 128 → EReal) (k : Fin 128) : EReal :=
  max ((∑ j : Fin 10000, arow j * z j k) + b k) zeroW

/-- One node's activation times the next weight matrix: `Σ_k h k · W (k, q)`. -/
def mixRow {n : Nat} (h : Fin 128 → EReal) (W : Mat 128 n) (q : Fin n) : EReal :=
  ∑ k : Fin 128, h k * W (ix2 k q)

/-- One node's row of the next layer's operand: `(max (arow · z + b) 0) · W`. -/
def nextRow {n : Nat} (arow : Fin 10000 → EReal) (z : Fin 10000 → Fin 128 → EReal) (b : Fin 128 → EReal)
    (W : Mat 128 n) (q : Fin n) : EReal :=
  mixRow (actRow arow z b) W q

/-- The log-softmax of one row `ℓ` of ten logits, at class `c`: shift by the row's maximum, subtract the log of the
    sum of exponentials of the shifted row. -/
def logSoftmaxRow (ℓ : Fin 10 → EReal) (c : Fin 10) : EReal :=
  (ℓ c - (Finset.univ : Finset (Fin 10)).fold max negInfW ℓ)
    - Ideal.log (∑ c' : Fin 10, Ideal.exp (ℓ c' - (Finset.univ : Finset (Fin 10)).fold max negInfW ℓ))

section
variable (x : Mat 10000 128) (adj : Mat 10000 10000) (W1 : Mat 128 128) (b1 : Vct 128) (W2 : Mat 128 128) (b2 : Vct 128)
  (W3 : Mat 128 128) (b3 : Vct 128) (Wl : Mat 128 10) (bl : Vct 10)

/-- `z1 = max (adj · (x · W1) + b1) 0 · W2`. -/
def z1 (r : Fin 10000) (q : Fin 128) : EReal :=
  nextRow (fun j => adj (ix2 r j)) (proj x W1) (fun k => b1 (ix1 k)) W2 q
/-- `z2 = max (adj · z1 + b2) 0 · W3`. -/
def z2 (r : Fin 10000) (q : Fin 128) : EReal :=
  nextRow (fun j => adj (ix2 r j)) (z1 x adj W1 b1 W2) (fun k => b2 (ix1 k)) W3 q
/-- `logits = max (adj · z2 + b3) 0 · Wl + bl`. -/
def logits (r : Fin 10000) (c : Fin 10) : EReal :=
  nextRow (fun j => adj (ix2 r j)) (z2 x adj W1 b1 W2 b2 W3) (fun k => b3 (ix1 k)) Wl c + bl (ix1 c)

/-- The result at node `r`, class `c`. -/
def out (r : Fin 10000) (c : Fin 10) : EReal :=
  logSoftmaxRow (fun c' => logits x adj W1 b1 W2 b2 W3 b3 Wl bl r c') c

/-- The result as one `[10000, 10]` array. -/
def outArr : Mat 10000 10 := fun i => out x adj W1 b1 W2 b2 W3 b3 Wl bl (i 0) (i 1)

end

end Cert.Gcn

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.RefSide.lean ====
/-
  The reference program computes the specified function.

  Read one operation at a time at a symbolic index, the reference is, layer by layer,
    (x · W1) (j, k)   = Σ_i x (j, i) · W1 (i, k),
    h1 (r, k)         = max (Σ_j adj (r, j) · (x · W1) (j, k) + b1 k) 0,     z1 (r, q) = Σ_k h1 (r, k) · W2 (k, q),
    h2 (r, k)         = max (Σ_j adj (r, j) · z1 (j, k) + b2 k) 0,           z2 (r, q) = Σ_k h2 (r, k) · W3 (k, q),
    h3 (r, k)         = max (Σ_j adj (r, j) · z2 (j, k) + b3 k) 0,           logits (r, c) = Σ_k h3 (r, k) · Wl (k, c) + bl c,
  and then, with M r the fold of max over the ten logits of row r from minus infinity,
    out (r, c) = (logits (r, c) − M r) − log (Σ_c' exp (logits (r, c') − M r)).
  Each matrix product is the sum over its contracted coordinate; a bias broadcast along the rows is the bias at the
  column; the clamp is max with the zero literal. The row maximum is a reduction with max along the second axis, which
  reads its operand at (r, k) for the reduced coordinate k; max is commutative and associative, so the reduction is the
  fold over that coordinate. The one further max with minus infinity changes nothing, and the sum of exponentials
  starts from the zero literal, which adds nothing. Every step is taken at one index (r, c): no array is evaluated.
-/
import proofs.«125264_g22127671509522_cont_8to1_1214_8_alg».proof.Proof.RefRead
import proofs.«125264_g22127671509522_cont_8to1_1214_8_alg».proof.Proof.GcnSpec
import proofs.«125264_g22127671509522_cont_8to1_1214_8_alg».proof.Proof.LibRows
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx

/-- x · W1 at (j, k): the sum over the contracted coordinate. -/
theorem z0_eq (x0 : (⟨S10000x128, .f32⟩ : BufTy).Contents (Elt Ideal)) (x2 : (⟨S128x128, .f32⟩ : BufTy).Contents (Elt Ideal)) (j : Fin 10000) (k : Fin 128) :
    val_main_v0 (F := Ideal) x0 x2 (ix2 j k) = Cert.Gcn.proj x0 x2 j k := by
  rw [val_main_v0_apply]
  unfold Cert.Gcn.proj
  refine Finset.sum_congr rfl fun i _ => ?_
  rw [show lidx_main_v0 (ix2 j k) i = ix2 j i from funext fun a => Fin.ext (by match a with | ⟨0, _⟩ => rfl | ⟨1, _⟩ => rfl),
    show ridx_main_v0 (ix2 j k) i = ix2 i k from funext fun a => Fin.ext (by match a with | ⟨0, _⟩ => rfl | ⟨1, _⟩ => rfl)]

/-- The first activation at (r, k): row r of the adjacency against column k of x · W1, plus b1 k, clamped at zero. -/
theorem h1_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) (k : Fin 128) :
    val_main_v5 (F := Ideal) x0 x1 x2 x3 (ix2 r k)
      = Cert.Gcn.actRow (fun j => x1 (ix2 r j)) (Cert.Gcn.proj x0 x2) (fun k => x3 (ix1 k)) k := by
  rw [val_main_v5_apply, val_main_v4_apply, val_main_v1_apply, val_main_v3_apply, val_main_v2_apply,
    val_main_call0_v0_apply, val_main_call0_cst_apply]
  rw [show idx_main_v2 (idx_main_v3 (ix2 r k)) = ix1 k from funext fun a => Fin.ext (by match a with | ⟨0, _⟩ => rfl)]
  have hs : (∑ j : Fin 10000, x1 (lidx_main_v1 (ix2 r k) j) * val_main_v0 (F := Ideal) x0 x2 (ridx_main_v1 (ix2 r k) j))
      = ∑ j : Fin 10000, x1 (ix2 r j) * Cert.Gcn.proj x0 x2 j k :=
    Finset.sum_congr rfl fun j _ => by
      rw [show lidx_main_v1 (ix2 r k) j = ix2 r j from funext fun a => Fin.ext (by match a with | ⟨0, _⟩ => rfl | ⟨1, _⟩ => rfl),
        show ridx_main_v1 (ix2 r k) j = ix2 j k from funext fun a => Fin.ext (by match a with | ⟨0, _⟩ => rfl | ⟨1, _⟩ => rfl), z0_eq]
  rw [hs]
  rfl

/-- The second layer's operand at (r, q): the first activation's row r against column q of W2. -/
theorem z1_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 10000) (q : Fin 128) :
    val_main_v6 (F := Ideal) x0 x1 x2 x3 x4 (ix2 r q) = Cert.Gcn.z1 x0 x1 x2 x3 x4 r q := by
  rw [val_main_v6_apply]
  unfold Cert.Gcn.z1 Cert.Gcn.nextRow Cert.Gcn.mixRow
  refine Finset.sum_congr rfl fun k _ => ?_
  rw [show lidx_main_v6 (ix2 r q) k = ix2 r k from funext fun a => Fin.ext (by match a with | ⟨0, _⟩ => rfl | ⟨1, _⟩ => rfl),
    show ridx_main_v6 (ix2 r q) k = ix2 k q from funext fun a => Fin.ext (by match a with | ⟨0, _⟩ => rfl | ⟨1, _⟩ => rfl), h1_eq]

/-- The second activation at (r, k): row r of the adjacency against column k of z1, plus b2 k, clamped at zero. -/
theorem h2_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 10000) (k : Fin 128) :
    val_main_v11 (F := Ideal) x0 x1 x2 x3 x4 x5 (ix2 r k)
      = Cert.Gcn.actRow (fun j => x1 (ix2 r j)) (Cert.Gcn.z1 x0 x1 x2 x3 x4) (fun k => x5 (ix1 k)) k := by
  rw [val_main_v11_apply, val_main_v10_apply, val_main_v7_apply, val_main_v9_apply, val_main_v8_apply,
    val_main_call1_v0_apply, val_main_call1_cst_apply]
  rw [show idx_main_v8 (idx_main_v9 (ix2 r k)) = ix1 k from funext fun a => Fin.ext (by match a with | ⟨0, _⟩ => rfl)]
  have hs : (∑ j : Fin 10000, x1 (lidx_main_v7 (ix2 r k) j) * val_main_v6 (F := Ideal) x0 x1 x2 x3 x4 (ridx_main_v7 (ix2 r k) j))
      = ∑ j : Fin 10000, x1 (ix2 r j) * Cert.Gcn.z1 x0 x1 x2 x3 x4 j k :=
    Finset.sum_congr rfl fun j _ => by
      rw [show lidx_main_v7 (ix2 r k) j = ix2 r j from funext fun a => Fin.ext (by match a with | ⟨0, _⟩ => rfl | ⟨1, _⟩ => rfl),
        show ridx_main_v7 (ix2 r k) j = ix2 j k from funext fun a => Fin.ext (by match a with | ⟨0, _⟩ => rfl | ⟨1, _⟩ => rfl), z1_eq]
  rw [hs]
  rfl

/-- The third layer's operand at (r, q): the second activation's row r against column q of W3. -/
theorem z2_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (r : Fin 10000) (q : Fin 128) :
    val_main_v12 (F := Ideal) x0 x1 x2 x3 x4 x5 x6 (ix2 r q) = Cert.Gcn.z2 x0 x1 x2 x3 x4 x5 x6 r q := by
  rw [val_main_v12_apply]
  unfold Cert.Gcn.z2 Cert.Gcn.nextRow Cert.Gcn.mixRow
  refine Finset.sum_congr rfl fun k _ => ?_
  rw [show lidx_main_v12 (ix2 r q) k = ix2 r k from funext fun a => Fin.ext (by match a with | ⟨0, _⟩ => rfl | ⟨1, _⟩ => rfl),
    show ridx_main_v12 (ix2 r q) k = ix2 k q from funext fun a => Fin.ext (by match a with | ⟨0, _⟩ => rfl | ⟨1, _⟩ => rfl), h2_eq]

/-- The third activation at (r, k): row r of the adjacency against column k of z2, plus b3 k, clamped at zero. -/
theorem h3_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 10000) (k : Fin 128) :
    val_main_v17 (F := Ideal) x0 x1 x2 x3 x4 x5 x6 x7 (ix2 r k)
      = Cert.Gcn.actRow (fun j => x1 (ix2 r j)) (Cert.Gcn.z2 x0 x1 x2 x3 x4 x5 x6) (fun k => x7 (ix1 k)) k := by
  rw [val_main_v17_apply, val_main_v16_apply, val_main_v13_apply, val_main_v15_apply, val_main_v14_apply,
    val_main_call2_v0_apply, val_main_call2_cst_apply]
  rw [show idx_main_v14 (idx_main_v15 (ix2 r k)) = ix1 k from funext fun a => Fin.ext (by match a with | ⟨0, _⟩ => rfl)]
  have hs : (∑ j : Fin 10000, x1 (lidx_main_v13 (ix2 r k) j) * val_main_v12 (F := Ideal) x0 x1 x2 x3 x4 x5 x6 (ridx_main_v13 (ix2 r k) j))
      = ∑ j : Fin 10000, x1 (ix2 r j) * Cert.Gcn.z2 x0 x1 x2 x3 x4 x5 x6 j k :=
    Finset.sum_congr rfl fun j _ => by
      rw [show lidx_main_v13 (ix2 r k) j = ix2 r j from funext fun a => Fin.ext (by match a with | ⟨0, _⟩ => rfl | ⟨1, _⟩ => rfl),
        show ridx_main_v13 (ix2 r k) j = ix2 j k from funext fun a => Fin.ext (by match a with | ⟨0, _⟩ => rfl | ⟨1, _⟩ => rfl), z2_eq]
  rw [hs]
  rfl

/-- The logits at (r, c): the third activation's row r against column c of Wl, plus bl c. -/
theorem logits_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal)) (r : Fin 10000) (c : Fin 10) :
    val_main_v21 (F := Ideal) x0 x1 x2 x3 x4 x5 x6 x7 x8 x9 (ix2 r c) = Cert.Gcn.logits x0 x1 x2 x3 x4 x5 x6 x7 x8 x9 r c := by
  rw [val_main_v21_apply, val_main_v18_apply, val_main_v20_apply, val_main_v19_apply]
  rw [show idx_main_v19 (idx_main_v20 (ix2 r c)) = ix1 c from funext fun a => Fin.ext (by match a with | ⟨0, _⟩ => rfl)]
  unfold Cert.Gcn.logits Cert.Gcn.nextRow Cert.Gcn.mixRow
  have hs : (∑ k : Fin 128, val_main_v17 (F := Ideal) x0 x1 x2 x3 x4 x5 x6 x7 (lidx_main_v18 (ix2 r c) k) * x8 (ridx_main_v18 (ix2 r c) k))
      = ∑ k : Fin 128, Cert.Gcn.actRow (fun j => x1 (ix2 r j)) (Cert.Gcn.z2 x0 x1 x2 x3 x4 x5 x6) (fun k => x7 (ix1 k)) k * x8 (ix2 k c) :=
    Finset.sum_congr rfl fun k _ => by
      rw [show lidx_main_v18 (ix2 r c) k = ix2 r k from funext fun a => Fin.ext (by match a with | ⟨0, _⟩ => rfl | ⟨1, _⟩ => rfl),
        show ridx_main_v18 (ix2 r c) k = ix2 k c from funext fun a => Fin.ext (by match a with | ⟨0, _⟩ => rfl | ⟨1, _⟩ => rfl), h3_eq]
  rw [hs]
  rfl

/-- The row maximum at r: the fold of max over the ten logits of row r from minus infinity. The reduction reads
    its operand at (r, k), k the reduced coordinate; the further max with minus infinity changes nothing. -/
theorem rowMax_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal)) (r : Fin 10000) :
    val_main_call3_v2 (F := Ideal) x0 x1 x2 x3 x4 x5 x6 x7 x8 x9 (ix1 r)
      = (Finset.univ : Finset (Fin 10)).fold max Cert.Gcn.negInfW (fun c' => Cert.Gcn.logits x0 x1 x2 x3 x4 x5 x6 x7 x8 x9 r c') := by
  rw [val_main_call3_v2_apply, val_main_call3_v1_apply, val_main_call3_cst_0_apply]
  simp only [Ideal.maximumf_def, Ideal.ofBits_def]
  rw [Cert.Rows.neg_inf_max]
  unfold val_main_call3_v0
  refine (Host.reduce_eq_fold_single (FloatOps.maximumf (F := Ideal) (φ := .f32)) _ _ reducesTo_S10000x10_S10000_d1
    (by decide : S10000x10.Reduces [1] S10000) h_S_ (ix1 r)).trans ?_
  exact Finset.fold_congr (fun k _ => by
    show val_main_v21 (F := Ideal) x0 x1 x2 x3 x4 x5 x6 x7 x8 x9 ((by decide : S10000x10.Reduces [1] S10000).lift (ix1 r) k) = _
    rw [Cert.Rows.lift_row]
    exact logits_eq x0 x1 x2 x3 x4 x5 x6 x7 x8 x9 r _)

/-- The shifted logit at (r, c): the logit minus its row's maximum. -/
theorem shift_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal)) (r : Fin 10000) (c : Fin 10) :
    val_main_call3_v5 (F := Ideal) x0 x1 x2 x3 x4 x5 x6 x7 x8 x9 (ix2 r c)
      = Cert.Gcn.logits x0 x1 x2 x3 x4 x5 x6 x7 x8 x9 r c
        - (Finset.univ : Finset (Fin 10)).fold max Cert.Gcn.negInfW (fun c' => Cert.Gcn.logits x0 x1 x2 x3 x4 x5 x6 x7 x8 x9 r c') := by
  rw [val_main_call3_v5_apply, val_main_call3_v4_apply, val_main_call3_v3_apply, logits_eq]
  rw [show idx_main_call3_v3 (idx_main_call3_v4 (ix2 r c)) = ix1 r from funext fun a => Fin.ext (by match a with | ⟨0, _⟩ => rfl), rowMax_eq]
  rfl

/-- The log of the row's sum of exponentials of the shifted logits; the sum starts from the zero literal, which adds nothing. -/
theorem logSum_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal)) (r : Fin 10000) (c : Fin 10) :
    val_main_call3_v10 (F := Ideal) x0 x1 x2 x3 x4 x5 x6 x7 x8 x9 (ix2 r c)
      = Ideal.log (∑ c' : Fin 10, Ideal.exp (Cert.Gcn.logits x0 x1 x2 x3 x4 x5 x6 x7 x8 x9 r c'
          - (Finset.univ : Finset (Fin 10)).fold max Cert.Gcn.negInfW (fun c'' => Cert.Gcn.logits x0 x1 x2 x3 x4 x5 x6 x7 x8 x9 r c''))) := by
  rw [val_main_call3_v10_apply, val_main_call3_v9_apply, val_main_call3_v8_apply]
  rw [show idx_main_call3_v8 (idx_main_call3_v10 (ix2 r c)) = ix1 r from funext fun a => Fin.ext (by match a with | ⟨0, _⟩ => rfl)]
  rw [val_main_call3_v7_apply, val_main_call3_cst_1_apply]
  have hs : (∑ k : Fin 10, val_main_call3_v6 (F := Ideal) x0 x1 x2 x3 x4 x5 x6 x7 x8 x9 (idx_main_call3_v7 (ix1 r) k))
      = ∑ c' : Fin 10, Ideal.exp (Cert.Gcn.logits x0 x1 x2 x3 x4 x5 x6 x7 x8 x9 r c'
          - (Finset.univ : Finset (Fin 10)).fold max Cert.Gcn.negInfW (fun c'' => Cert.Gcn.logits x0 x1 x2 x3 x4 x5 x6 x7 x8 x9 r c'')) :=
    Finset.sum_congr rfl fun k _ => by
      rw [show idx_main_call3_v7 (ix1 r) k = ix2 r k from funext fun a => Fin.ext (by match a with | ⟨0, _⟩ => rfl | ⟨1, _⟩ => rfl),
        val_main_call3_v6_apply, shift_eq]
      rfl
  rw [hs]
  simp only [Ideal.hostUnary_log_def, Ideal.ofBits_def, Ideal.ofBits_zero_f32, zero_add]

/-- The reference program's result is the specified function: at (r, c), the shifted logit minus the log of the
    row's sum of exponentials of the shifted logits. -/
theorem stage_eq_spec (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x10, .f32⟩ : BufTy).Contents (Elt Ideal)) (x9 : (⟨S10, .f32⟩ : BufTy).Contents (Elt Ideal)) :
    Cert.ReferenceIdeal.ReadP.val_main_v22 (F := Ideal) x0 x1 x2 x3 x4 x5 x6 x7 x8 x9 = Cert.Gcn.outArr x0 x1 x2 x3 x4 x5 x6 x7 x8 x9 := by
  funext i
  obtain ⟨r, c, rfl⟩ : ∃ (r : Fin 10000) (c : Fin 10), i = ix2 r c := ⟨i 0, i 1, eq_ix2 i⟩
  rw [val_main_v22_apply, shift_eq, logSum_eq]
  rfl

end Cert.ReferenceIdeal.RefValue

end
-- ==== Proof.KernelRun.lean ====
/-
  The idealized kernel's run with its result named.

  @main is one stretch of host operations (four reshapes of the bias vectors into rows) followed by three
  pipelined kernel launches. The run threads the TensorCore's buffer contents through the four segments: `W1`
  after the reshapes, `W2`, `W3`, `W4` after each launch (a launch's arrays at what its write-backs leave, every
  other buffer as the launch found it). Every weakly fair execution terminates without a fault, and in the final
  memory every unscoped buffer holds its `W4` contents: in particular the result buffer holds `W4` at the result,
  and each argument holds what it held at launch.
-/
import proofs.«125264_g22127671509522_cont_8to1_1214_8_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main from any memory with zero counters: it terminates, the result buffer ends at the last
    boundary's contents `W4`, and the ten argument arrays end as launched. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«125264_g22127671509522_cont_8to1_1214_8_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«125264_g22127671509522_cont_8to1_1214_8_alg».proof.Proof.LibRows
import proofs.«125264_g22127671509522_cont_8to1_1214_8_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KernelRows.lean ====
/-
  What each kernel body computes, entry by entry over the extended reals.

  Each of the three bodies loads a block of rows `a` of the adjacency (400 or 1000 rows, all 10000 columns),
  the whole operand `z : [10000, 128]` (the first body builds it itself, as `x · W1`), a bias row `b : [1, 128]`
  and a weight matrix, and computes, for row `p` of the block,
      max (Σ_j a (p, j) · z (j, k) + b (0, k)) 0      (k < 128)
  and its product with the weight matrix. The first two bodies store that product (narrowed to a shorter float
  format, which changes no exact value); the last adds the class bias and takes the row's log-softmax. Row `p` of
  a block is one node, so each payload is the specification's one-row function of the block's row `p`.
-/
import proofs.«125264_g22127671509522_cont_8to1_1214_8_alg».proof.Proof.Gen.KernelIdeal.Skeleton
import proofs.«125264_g22127671509522_cont_8to1_1214_8_alg».proof.Proof.GcnSpec
import proofs.«125264_g22127671509522_cont_8to1_1214_8_alg».proof.Proof.LibPlainMatmul
import proofs.«125264_g22127671509522_cont_8to1_1214_8_alg».proof.Proof.LibRows
import proofs.«125264_g22127671509522_cont_8to1_1214_8_alg».proof.Proof.LibRowMax
import proofs.«125264_g22127671509522_cont_8to1_1214_8_alg».proof.Proof.LibMatrixReduce
import Idealize.ShloMosaic.Lib.ValueIdx
import Idealize.ShloMosaic.Lib.Pipeline.Value

noncomputable section

open Idealize.ShloMosaic Idealize.ShloMosaic.ValueIdx

namespace Cert.KernelIdeal.Rows

open Cert.KernelIdeal Cert.KernelIdeal.Gen

/-- A block of `M` adjacency rows times the operand, plus the bias row broadcast down the block, clamped below at
    zero: at `(p, k)` it is the specification's activation of the block's row `p`. -/
theorem act_apply {M : Nat} (D : DotDims ⟨2, ![M, 10000]⟩ ⟨2, ![10000, 128]⟩ ⟨2, ![M, 128]⟩)
    (hlc : D.lhsContracting = [1]) (hrc : D.rhsContracting = [0]) (hln : D.lhsNonContracting = [0])
    (hrn : D.rhsNonContracting = [1]) (hlb : D.lhsBatch = []) (hrb : D.rhsBatch = [])
    {φ₁ φ₂ : FTy} (a : FVec Ideal ⟨2, ![M, 10000]⟩ φ₁) (z : FVec Ideal ⟨2, ![10000, 128]⟩ φ₂)
    (b : FVec Ideal ⟨2, ![1, 128]⟩ .f32)
    (hb : (⟨2, ![1, 128]⟩ : Shape).Broadcasts ⟨2, ![M, 128]⟩)
    (p : Fin M) (k : Fin 128) :
    maximumf (addf (FloatOps.matmul D none a z (constant (F := Ideal) ⟨2, ![M, 128]⟩ .f32 0x00000000#32))
          (broadcastTo ⟨2, ![M, 128]⟩ b hb))
        (broadcast ⟨2, ![M, 128]⟩ (Scalar.ofBits (F := Ideal) .f32 0x00000000#32)) (ix2 p k)
      = Gcn.actRow (fun j => a (ix2 p j)) (fun j k => z (ix2 j k)) (fun k => b (ix2 0 k)) k := by
  rw [maximumf_apply, addf_apply, broadcast_apply,
    Cert.LibPlainMatmul.matmul_zero_apply D hlc hrc hln hrn hlb hrb none a z p k,
    Cert.Rows.bcast_row (by decide)]
  rfl

/-- The first body's stored block: row `p` of the block against `z = x · W1`, through the next weights. -/
theorem layer1_apply (a : Vec Ideal S400x10000 .f32) (x : Vec Ideal S10000x128 .f32) (w1 : Vec Ideal S128x128 .f32)
    (b : Vec Ideal S1x128 .f32) (wn : Vec Ideal S128x128 .f32) (p : Fin 400) (q : Fin 128) :
    k0_pay2 (F := Ideal) a x w1 b wn (ix2 p q)
      = Gcn.nextRow (fun j => a (ix2 p j)) (Gcn.proj x w1) (fun k => b (ix2 0 k)) wn q := by
  unfold k0_pay2
  simp only [matmul, shapeCast_self]
  rw [truncf_apply]
  refine (Cert.LibPlainMatmul.matmul_zero_apply dot_S400x128_S128x128_S400x128_1_0_0_1_n_n rfl rfl rfl rfl rfl rfl none _ wn p q).trans ?_
  unfold Gcn.nextRow Gcn.mixRow
  refine Finset.sum_congr rfl fun k _ => congrArg (· * wn (ix2 k q)) ?_
  refine (act_apply dot_S400x10000_S10000x128_S400x128_1_0_0_1_n_n rfl rfl rfl rfl rfl rfl a _ b _ p k).trans ?_
  exact congrArg (fun z => Gcn.actRow (fun j => a (ix2 p j)) z (fun k => b (ix2 0 k)) k)
    (funext fun j => funext fun k' =>
      Cert.LibPlainMatmul.matmul_zero_apply dot_S10000x128_S128x128_S10000x128_1_0_0_1_n_n rfl rfl rfl rfl rfl rfl none x w1 j k')

/-- The second body's stored block: row `p` of the block against the stored operand `z`, through the next weights. -/
theorem layer2_apply (a : Vec Ideal S1000x10000 .bf16) (z : Vec Ideal S10000x128 .bf16) (b : Vec Ideal S1x128 .f32)
    (wn : Vec Ideal S128x128 .f32) (p : Fin 1000) (q : Fin 128) :
    k1_pay1 (F := Ideal) a z b wn (ix2 p q)
      = Gcn.nextRow (fun j => a (ix2 p j)) (fun j k => z (ix2 j k)) (fun k => b (ix2 0 k)) wn q := by
  unfold k1_pay1
  simp only [matmul, shapeCast_self]
  rw [truncf_apply]
  refine (Cert.LibPlainMatmul.matmul_zero_apply dot_S1000x128_S128x128_S1000x128_1_0_0_1_n_n rfl rfl rfl rfl rfl rfl none _ wn p q).trans ?_
  unfold Gcn.nextRow Gcn.mixRow
  refine Finset.sum_congr rfl fun k _ => congrArg (· * wn (ix2 k q)) ?_
  exact act_apply dot_S1000x10000_S10000x128_S1000x128_1_0_0_1_n_n rfl rfl rfl rfl rfl rfl a z b _ p k

/-- A block of `M` rows of ten logits, shifted by each row's maximum and then by the log of the row's sum of
    exponentials (the maximum and the sum kept as a column and broadcast back along the row): at `(p, c)` it is the
    log-softmax of row `p`. -/
theorem logSoftmax_apply {M : Nat} (hM : M ≠ 1) (L : FVec Ideal ⟨2, ![M, 10]⟩ .f32)
    (hr : (⟨2, ![M, 10]⟩ : Shape).Reduces [1] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, 10]⟩)
    (p : Fin M) (c : Fin 10) :
    subf (subf L (broadcastTo ⟨2, ![M, 10]⟩ (shapeCast ⟨2, ![M, 1]⟩
            (multiReduction .maximumf [1] (⟨1, ![M]⟩ : Shape) L 0xFF800000#32 hr hφ hmax) hc) hb))
        (broadcastTo ⟨2, ![M, 10]⟩ (log (shapeCast ⟨2, ![M, 1]⟩
            (multiReduction .add [1] (⟨1, ![M]⟩ : Shape)
              (exp (subf L (broadcastTo ⟨2, ![M, 10]⟩ (shapeCast ⟨2, ![M, 1]⟩
                (multiReduction .maximumf [1] (⟨1, ![M]⟩ : Shape) L 0xFF800000#32 hr hφ hmax) hc) hb)))
              0x00000000#32 hr hφ hadd) hc)) hb) (ix2 p c)
      = Gcn.logSoftmaxRow (fun c' => L (ix2 p c')) c := by
  -- the row's maximum, wherever along the row it is read
  have hrowmax : ∀ c' : Fin 10, broadcastTo ⟨2, ![M, 10]⟩ (shapeCast ⟨2, ![M, 1]⟩
        (multiReduction .maximumf [1] (⟨1, ![M]⟩ : Shape) L 0xFF800000#32 hr hφ hmax) hc) hb (ix2 p c')
      = (Finset.univ : Finset (Fin 10)).fold max Gcn.negInfW (fun c'' => L (ix2 p c'')) := fun c' => by
    rw [Cert.Rows.bcast_col hM, Cert.Rows.cast_col, Cert.LibRowMax.rowMax_apply]
  rw [subf_apply, subf_apply, hrowmax, Cert.Rows.bcast_col hM]
  show _ - Ideal.log (shapeCast ⟨2, ![M, 1]⟩ _ hc (ix2 p 0)) = _
  rw [Cert.Rows.cast_col, Cert.LibMatrixReduce.rowSum_apply]
  unfold Gcn.logSoftmaxRow
  refine congrArg (fun s => _ - Ideal.log s) (Finset.sum_congr rfl fun c' _ => ?_)
  show Ideal.exp (L (ix2 p c') - _) = _
  rw [hrowmax]

/-- The last body's stored block: the log-softmax of row `p`'s ten logits, each the block's row against the
    stored operand through the class weights, plus the class bias. -/
theorem final_apply (a : Vec Ideal S1000x10000 .bf16) (z : Vec Ideal S10000x128 .bf16) (b : Vec Ideal S1x128 .f32)
    (wl : Vec Ideal S128x10 .f32) (bl : Vec Ideal S1x10 .f32) (p : Fin 1000) (c : Fin 10) :
    k2_pay1 (F := Ideal) a z b wl bl (ix2 p c)
      = Gcn.logSoftmaxRow (fun c' => Gcn.nextRow (fun j => a (ix2 p j)) (fun j k => z (ix2 j k))
          (fun k => b (ix2 0 k)) wl c' + bl (ix2 0 c')) c := by
  unfold k2_pay1
  simp only [matmul, shapeCast_self]
  refine (logSoftmax_apply (M := 1000) (by decide) _ reduces_S1000x10_S1000 (.inl rfl) rfl rfl
    shapeCasts_S1000_S1000x1 broadcasts_S1000x1_S1000x10 p c).trans ?_
  refine congrArg (fun ℓ => Gcn.logSoftmaxRow ℓ c) (funext fun c' => ?_)
  rw [addf_apply, Cert.Rows.bcast_row (by decide)]
  refine congrArg (· + bl (ix2 0 c')) ?_
  refine (Cert.LibPlainMatmul.matmul_zero_apply dot_S1000x128_S128x10_S1000x10_1_0_0_1_n_n rfl rfl rfl rfl rfl rfl none _ wl p c').trans ?_
  unfold Gcn.nextRow Gcn.mixRow
  refine Finset.sum_congr rfl fun k _ => congrArg (· * wl (ix2 k c')) ?_
  exact act_apply dot_S1000x10000_S10000x128_S1000x128_1_0_0_1_n_n rfl rfl rfl rfl rfl rfl a z b _ p k

end Cert.KernelIdeal.Rows

end
-- ==== Proof.KernelBlocks0.lean ====
/-
  The first launch, from blocks to arrays.

  The grid has 25 points; point `t` loads rows `400·t … 400·t + 399` of the adjacency (all its columns) and the
  whole of the features, of both weight matrices and of the bias row, and writes back rows `400·t …` of its two
  results: the next layer's operand, and a copy of the adjacency block in a shorter float format (the same exact
  values). Row `p` of point `t`'s block is row `400·t + p` of the arrays, the 25 blocks tile the 10000 rows, so
  after the launch each result array is one function of the arrays the launch found, index by index.
-/
import proofs.«125264_g22127671509522_cont_8to1_1214_8_alg».proof.Proof.Gen.KernelIdeal.Frame
import proofs.«125264_g22127671509522_cont_8to1_1214_8_alg».proof.Proof.KernelRows
import Idealize.ShloMosaic.Lib.Pipeline.Value

set_option maxRecDepth 16384

noncomputable section

namespace Cert.KernelIdeal.Blocks0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency block and both result blocks sit at row block `t`,
    column block 0; every other window is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The next layer's operand as one array: node `i 0`'s row against `x · W1`, through `W2`. -/
def z1Arr (c : Dev nD) : S10000x128.Idx → EReal := fun i =>
  Gcn.nextRow (fun j => V c main_arg1 (ix2 (⟨(i 0).val, (i 0).isLt⟩ : Fin 10000) j)) (Gcn.proj (V c main_arg0) (V c main_arg2))
    (fun k => V c main_v0 (ix2 0 k)) (V c main_arg4) (⟨(i 1).val, (i 1).isLt⟩ : Fin 128)

/-- Equal rows, operands, biases, weights and columns give equal entries. -/
theorem nextRow_congr {n : Nat} {arow arow' : Fin 10000 → EReal} {z z' : Fin 10000 → Fin 128 → EReal} {b b' : Fin 128 → EReal}
    {W W' : Gcn.Mat 128 n} {q q' : Fin n} (h1 : arow = arow') (h2 : z = z') (h3 : b = b') (h4 : W = W') (h5 : q = q') :
    Gcn.nextRow arow z b W q = Gcn.nextRow arow' z' b' W' q' := by subst h1 h2 h3 h4 h5; rfl

/-- What point `t` writes back to the next layer's operand is block `t` of `z1Arr`. -/
theorem flushed5_eq (c : Dev nD) (t : Fin cfg0.N) :
    (dat0 V c).flushed 5 t = ((cfg0.win 5).blk t).view.read (Elt Ideal) (z1Arr V c) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz,
    View.ld_unit_zero (S := S128x128) hz, View.ld_unit_zero (S := S1x128) hz]
  obtain ⟨e00, e01, e10, e11, e20, e21, e30, e31, e40, e41, e50, e51, e60, e61⟩ := idx_facts t
  funext y
  obtain ⟨p, q, rfl⟩ : ∃ (p : Fin 400) (q : Fin 128), y = ix2 p q := ⟨y 0, y 1, eq_ix2 y⟩
  show k0_pay2 (iblk0 V c 0 t) (iblk0 V c 1 t) (iblk0 V c 2 t) (iblk0 V c 3 t) (iblk0 V c 4 t) (ix2 p q)
    = z1Arr V c (((cfg0.win 5).blk t).view.emb (ix2 p q))
  refine (Rows.layer1_apply _ _ _ _ _ p q).trans ?_
  -- the four windows that are their whole arrays
  have hx : (iblk0 V c 1 t : S10000x128.Idx → EReal) = V c main_arg0 := funext fun y => by
    show V c main_arg0 (((cfg0.win 1).blk t).view.emb y) = V c main_arg0 y
    refine congrArg (V c main_arg0) (funext fun a => Fin.ext ?_)
    match a with
    | ⟨0, _⟩ => show win0_1.index t (0 : Fin 2) * 10000 + 1 * (y 0).val = (y 0).val; omega
    | ⟨1, _⟩ => show win0_1.index t (1 : Fin 2) * 128 + 1 * (y 1).val = (y 1).val; omega
  have hw1 : (iblk0 V c 2 t : S128x128.Idx → EReal) = V c main_arg2 := funext fun y => by
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hb : (iblk0 V c 3 t : S1x128.Idx → EReal) = V c main_v0 := funext fun y => by
    show V c main_v0 (((cfg0.win 3).blk t).view.emb y) = V c main_v0 y
    refine congrArg (V c main_v0) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have hwn : (iblk0 V c 4 t : S128x128.Idx → EReal) = V c main_arg4 := funext fun y => by
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  unfold z1Arr
  refine nextRow_congr (funext fun j => ?_) (congrArg₂ Gcn.proj hx hw1) (funext fun k => congrFun hb (ix2 0 k)) hwn (Fin.ext ?_)
  · -- row `p` of the adjacency block is row `400·t + p` of the adjacency, where the result's row sits
    show V c main_arg1 (((cfg0.win 0).blk t).view.emb (ix2 p j)) = V c main_arg1 (ix2 _ j)
    refine congrArg (V c main_arg1) (funext fun a => Fin.ext ?_)
    match a with
    | ⟨0, _⟩ => show win0_0.index t (0 : Fin 2) * 400 + 1 * p.val = win0_5.index t (0 : Fin 2) * 400 + 1 * p.val; omega
    | ⟨1, _⟩ => show win0_0.index t (1 : Fin 2) * 10000 + 1 * j.val = j.val; omega
  · show q.val = win0_5.index t (1 : Fin 2) * 128 + 1 * q.val; omega

/-- An index of the array is in point `t`'s block iff each coordinate is in the block's range on its axis. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v4_0).slice (win0_5.rect t)).set ↔ _
  rw [View.set_slice_whole, Rect.mem_set_unit]
  exact Iff.rfl

/-- The 25 row blocks tile the array: row `r` is in block `r / 400`. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  refine ⟨⟨(i 0).val / 400, by show (i 0).val / 400 < 25; omega⟩, flush0_5 _, ?_⟩
  rw [mem_blk5]
  obtain ⟨-, -, -, -, -, -, -, -, -, -, e50, e51, -, -⟩ := idx_facts ⟨(i 0).val / 400, by show (i 0).val / 400 < 25; omega⟩
  have e50' : win0_5.index ⟨(i 0).val / 400, by show (i 0).val / 400 < 25; omega⟩ (0 : Fin 2) = (i 0).val / 400 := e50
  intro a
  match a with
  | ⟨0, _⟩ => show win0_5.index _ (0 : Fin 2) * 400 ≤ (i 0).val ∧ (i 0).val < win0_5.index _ (0 : Fin 2) * 400 + 400; omega
  | ⟨1, _⟩ => show win0_5.index _ (1 : Fin 2) * 128 ≤ (i 1).val ∧ (i 1).val < win0_5.index _ (1 : Fin 2) * 128 + 128; omega

/-- After the launch the next layer's operand array is `z1Arr` of the arrays the launch found. -/
theorem final5 (c : Dev nD) : (dat0 V c).arrAt 5 cfg0.N = z1Arr V c :=
  (dat0 V c).arrAt_eq_of_cover 5 (z1Arr V c) (fun t _ => flushed5_eq V c t) cover5

/-- The adjacency's copy as one array: the adjacency's own values (narrowing the format changes no exact value). -/
def adjArr (c : Dev nD) : S10000x10000.Idx → EReal := fun i => V c main_arg1 i

/-- What point `t` writes back to the adjacency's copy is block `t` of the adjacency. -/
theorem flushed6_eq (c : Dev nD) (t : Fin cfg0.N) :
    (dat0 V c).flushed 6 t = ((cfg0.win 6).blk t).view.read (Elt Ideal) (adjArr V c) := by
  show (cfg0.win 6).cut (grid0.coords t) ((dat0 V c).after 6 t) = _
  rw [after0_6]
  unfold out0_6
  rw [View.canon_unit_zero hz]
  simp only [View.ld_unit_zero (S := S400x10000) hz]
  obtain ⟨e00, e01, -, -, -, -, -, -, -, -, -, -, e60, e61⟩ := idx_facts t
  funext y
  show V c main_arg1 (((cfg0.win 0).blk t).view.emb y) = V c main_arg1 (((cfg0.win 6).blk t).view.emb y)
  refine congrArg (V c main_arg1) (funext fun a => Fin.ext ?_)
  match a with
  | ⟨0, _⟩ => show win0_0.index t (0 : Fin 2) * 400 + 1 * (y 0).val = win0_6.index t (0 : Fin 2) * 400 + 1 * (y 0).val; omega
  | ⟨1, _⟩ => show win0_0.index t (1 : Fin 2) * 10000 + 1 * (y 1).val = win0_6.index t (1 : Fin 2) * 10000 + 1 * (y 1).val; omega

theorem mem_blk6 (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_v4_1).slice (win0_6.rect t)).set ↔ _
  rw [View.set_slice_whole, Rect.mem_set_unit]
  exact Iff.rfl

/-- The 25 row blocks tile the copy: row `r` is in block `r / 400`. -/
theorem cover6 (i : S10000x10000.Idx) : ∃ t : Fin cfg0.N, (cfg0.win 6).flush t = true ∧ i ∈ ((cfg0.win 6).blk t).view.set := by
  have hi0 : (i 0).val < 10000 := (i 0).isLt
  have hi1 : (i 1).val < 10000 := (i 1).isLt
  refine ⟨⟨(i 0).val / 400, by show (i 0).val / 400 < 25; omega⟩, flush0_6 _, ?_⟩
  rw [mem_blk6]
  obtain ⟨-, -, -, -, -, -, -, -, -, -, -, -, e60, e61⟩ := idx_facts ⟨(i 0).val / 400, by show (i 0).val / 400 < 25; omega⟩
  have e60' : win0_6.index ⟨(i 0).val / 400, by show (i 0).val / 400 < 25; omega⟩ (0 : Fin 2) = (i 0).val / 400 := e60
  intro a
  match a with
  | ⟨0, _⟩ => show win0_6.index _ (0 : Fin 2) * 400 ≤ (i 0).val ∧ (i 0).val < win0_6.index _ (0 : Fin 2) * 400 + 400; omega
  | ⟨1, _⟩ => show win0_6.index _ (1 : Fin 2) * 10000 ≤ (i 1).val ∧ (i 1).val < win0_6.index _ (1 : Fin 2) * 10000 + 10000; omega

/-- After the launch the adjacency's copy holds the adjacency the launch found. -/
theorem final6 (c : Dev nD) : (dat0 V c).arrAt 6 cfg0.N = adjArr V c :=
  (dat0 V c).arrAt_eq_of_cover 6 (adjArr V c) (fun t _ => flushed6_eq V c t) cover6

end Cert.KernelIdeal.Blocks0

end
-- ==== Proof.KernelBlocks1.lean ====
/-
  The second launch, from blocks to arrays.

  The grid has 10 points; point `t` loads rows `1000·t … 1000·t + 999` of the adjacency's copy (all its columns)
  and the whole of the stored operand, of the bias row and of the weight matrix, and writes back rows `1000·t …`
  of the next layer's operand. Row `p` of point `t`'s block is row `1000·t + p` of the arrays, the 10 blocks tile
  the 10000 rows, so after the launch the result array is one function of the arrays the launch found.
-/
import proofs.«125264_g22127671509522_cont_8to1_1214_8_alg».proof.Proof.Gen.KernelIdeal.Frame
import proofs.«125264_g22127671509522_cont_8to1_1214_8_alg».proof.Proof.KernelRows
import Idealize.ShloMosaic.Lib.Pipeline.Value

set_option maxRecDepth 16384

noncomputable section

namespace Cert.KernelIdeal.Blocks1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency block and the result block sit at row block `t`, column
    block 0; every other window is its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The next layer's operand as one array: node `i 0`'s row of the adjacency copy against the stored operand,
    through the weights. -/
def z2Arr (c : Dev nD) : S10000x128.Idx → EReal := fun i =>
  Gcn.nextRow (fun j => V c main_v4_1 (ix2 (⟨(i 0).val, (i 0).isLt⟩ : Fin 10000) j)) (fun j k => V c main_v4_0 (ix2 j k))
    (fun k => V c main_v1 (ix2 0 k)) (V c main_arg6) (⟨(i 1).val, (i 1).isLt⟩ : Fin 128)

/-- Equal rows, operands, biases, weights and columns give equal entries. -/
theorem nextRow_congr {n : Nat} {arow arow' : Fin 10000 → EReal} {z z' : Fin 10000 → Fin 128 → EReal} {b b' : Fin 128 → EReal}
    {W W' : Gcn.Mat 128 n} {q q' : Fin n} (h1 : arow = arow') (h2 : z = z') (h3 : b = b') (h4 : W = W') (h5 : q = q') :
    Gcn.nextRow arow z b W q = Gcn.nextRow arow' z' b' W' q' := by subst h1 h2 h3 h4 h5; rfl

/-- What point `t` writes back is block `t` of `z2Arr`. -/
theorem flushed4_eq (c : Dev nD) (t : Fin cfg1.N) :
    (dat1 V c).flushed 4 t = ((cfg1.win 4).blk t).view.read (Elt Ideal) (z2Arr V c) := by
  show (cfg1.win 4).cut (grid1.coords t) ((dat1 V c).after 4 t) = _
  rw [after1_4]
  unfold out1_4
  rw [View.canon_unit_zero hz]
  simp only [View.ld_unit_zero (S := S1000x10000) hz, View.ld_unit_zero (S := S10000x128) hz,
    View.ld_unit_zero (S := S128x128) hz, View.ld_unit_zero (S := S1x128) hz]
  obtain ⟨e00, e01, e10, e11, e20, e21, e30, e31, e40, e41⟩ := idx_facts t
  funext y
  obtain ⟨p, q, rfl⟩ : ∃ (p : Fin 1000) (q : Fin 128), y = ix2 p q := ⟨y 0, y 1, eq_ix2 y⟩
  show k1_pay1 (iblk1 V c 0 t) (iblk1 V c 1 t) (iblk1 V c 2 t) (iblk1 V c 3 t) (ix2 p q)
    = z2Arr V c (((cfg1.win 4).blk t).view.emb (ix2 p q))
  refine (Rows.layer2_apply _ _ _ _ p q).trans ?_
  -- the three windows that are their whole arrays
  have hzz : (iblk1 V c 1 t : S10000x128.Idx → EReal) = V c main_v4_0 := funext fun y => by
    show V c main_v4_0 (((cfg1.win 1).blk t).view.emb y) = V c main_v4_0 y
    refine congrArg (V c main_v4_0) (funext fun a => Fin.ext ?_)
    match a with
    | ⟨0, _⟩ => show win1_1.index t (0 : Fin 2) * 10000 + 1 * (y 0).val = (y 0).val; omega
    | ⟨1, _⟩ => show win1_1.index t (1 : Fin 2) * 128 + 1 * (y 1).val = (y 1).val; omega
  have hb : (iblk1 V c 2 t : S1x128.Idx → EReal) = V c main_v1 := funext fun y => by
    show V c main_v1 (((cfg1.win 2).blk t).view.emb y) = V c main_v1 y
    refine congrArg (V c main_v1) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have hwn : (iblk1 V c 3 t : S128x128.Idx → EReal) = V c main_arg6 := funext fun y => by
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  unfold z2Arr
  refine nextRow_congr (funext fun j => ?_) (funext fun j => funext fun k => congrFun hzz (ix2 j k))
    (funext fun k => congrFun hb (ix2 0 k)) hwn (Fin.ext ?_)
  · -- row `p` of the block is row `1000·t + p` of the adjacency's copy, where the result's row sits
    show V c main_v4_1 (((cfg1.win 0).blk t).view.emb (ix2 p j)) = V c main_v4_1 (ix2 _ j)
    refine congrArg (V c main_v4_1) (funext fun a => Fin.ext ?_)
    match a with
    | ⟨0, _⟩ => show win1_0.index t (0 : Fin 2) * 1000 + 1 * p.val = win1_4.index t (0 : Fin 2) * 1000 + 1 * p.val; omega
    | ⟨1, _⟩ => show win1_0.index t (1 : Fin 2) * 10000 + 1 * j.val = j.val; omega
  · show q.val = win1_4.index t (1 : Fin 2) * 128 + 1 * q.val; omega

/-- An index of the array is in point `t`'s block iff each coordinate is in the block's range on its axis. -/
theorem mem_blk4 (t : Fin cfg1.N) (i : S10000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v5).slice (win1_4.rect t)).set ↔ _
  rw [View.set_slice_whole, Rect.mem_set_unit]
  exact Iff.rfl

/-- The 10 row blocks tile the array: row `r` is in block `r / 1000`. -/
theorem cover4 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  refine ⟨⟨(i 0).val / 1000, by show (i 0).val / 1000 < 10; omega⟩, flush1_4 _, ?_⟩
  rw [mem_blk4]
  obtain ⟨-, -, -, -, -, -, -, -, e40, e41⟩ := idx_facts ⟨(i 0).val / 1000, by show (i 0).val / 1000 < 10; omega⟩
  have e40' : win1_4.index ⟨(i 0).val / 1000, by show (i 0).val / 1000 < 10; omega⟩ (0 : Fin 2) = (i 0).val / 1000 := e40
  intro a
  match a with
  | ⟨0, _⟩ => show win1_4.index _ (0 : Fin 2) * 1000 ≤ (i 0).val ∧ (i 0).val < win1_4.index _ (0 : Fin 2) * 1000 + 1000; omega
  | ⟨1, _⟩ => show win1_4.index _ (1 : Fin 2) * 128 ≤ (i 1).val ∧ (i 1).val < win1_4.index _ (1 : Fin 2) * 128 + 128; omega

/-- After the launch the next layer's operand array is `z2Arr` of the arrays the launch found. -/
theorem final4 (c : Dev nD) : (dat1 V c).arrAt 4 cfg1.N = z2Arr V c :=
  (dat1 V c).arrAt_eq_of_cover 4 (z2Arr V c) (fun t _ => flushed4_eq V c t) cover4

end Cert.KernelIdeal.Blocks1

end
-- ==== Proof.KernelBlocks2.lean ====
/-
  The third launch, from blocks to arrays.

  The grid has 10 points; point `t` loads rows `1000·t … 1000·t + 999` of the adjacency copy (all its columns) and the
  whole of the stored operand, of the bias row, of the class weights and of the class-bias row, and writes back rows
  `1000·t …` of the result: for each node the log-softmax of its ten logits. Row `p` of point `t`'s block is row
  `1000·t + p` of the arrays, the 10 blocks tile the 10000 rows, so after the launch the result array is one function
  of the arrays the launch found, index by index.
-/
import proofs.«125264_g22127671509522_cont_8to1_1214_8_alg».proof.Proof.Gen.KernelIdeal.Frame
import proofs.«125264_g22127671509522_cont_8to1_1214_8_alg».proof.Proof.KernelRows
import Idealize.ShloMosaic.Lib.Pipeline.Value

set_option maxRecDepth 16384

noncomputable section

namespace Cert.KernelIdeal.Blocks2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency block and the result block sit at row block `t`,
    column block 0; every other window is its whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The result as one array: node `i 0`'s ten logits — its adjacency row against the stored operand, through the
    class weights, plus the class bias — under the log-softmax, at class `i 1`. -/
def outArr (c : Dev nD) : S10000x10.Idx → EReal := fun i =>
  Gcn.logSoftmaxRow (fun c' => Gcn.nextRow (fun j => V c main_v4_1 (ix2 (⟨(i 0).val, (i 0).isLt⟩ : Fin 10000) j)) (fun j k => V c main_v5 (ix2 j k))
    (fun k => V c main_v2 (ix2 0 k)) (V c main_arg8) c' + V c main_v3 (ix2 0 c')) (⟨(i 1).val, (i 1).isLt⟩ : Fin 10)

/-- Equal rows, operands, biases, weights and columns give equal entries. -/
theorem nextRow_congr {n : Nat} {arow arow' : Fin 10000 → EReal} {z z' : Fin 10000 → Fin 128 → EReal} {b b' : Fin 128 → EReal}
    {W W' : Gcn.Mat 128 n} {q q' : Fin n} (h1 : arow = arow') (h2 : z = z') (h3 : b = b') (h4 : W = W') (h5 : q = q') :
    Gcn.nextRow arow z b W q = Gcn.nextRow arow' z' b' W' q' := by subst h1 h2 h3 h4 h5; rfl

/-- Equal rows of logits and equal classes give equal log-softmax entries. -/
theorem logSoftmaxRow_congr {ℓ ℓ' : Fin 10 → EReal} {q q' : Fin 10} (h1 : ℓ = ℓ') (h2 : q = q') :
    Gcn.logSoftmaxRow ℓ q = Gcn.logSoftmaxRow ℓ' q' := by subst h1 h2; rfl

/-- What point `t` writes back to the result is block `t` of `outArr`. -/
theorem flushed5_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  unfold out2_5
  rw [View.canon_unit_zero hz]
  simp only [View.ld_unit_zero (S := S1000x10000) hz, View.ld_unit_zero (S := S10000x128) hz,
    View.ld_unit_zero (S := S1x128) hz, View.ld_unit_zero (S := S128x10) hz, View.ld_unit_zero (S := S1x10) hz]
  obtain ⟨e00, e01, e10, e11, e20, e21, e30, e31, e40, e41, e50, e51⟩ := idx_facts t
  funext y
  obtain ⟨p, q, rfl⟩ : ∃ (p : Fin 1000) (q : Fin 10), y = ix2 p q := ⟨y 0, y 1, eq_ix2 y⟩
  show k2_pay1 (iblk2 V c 0 t) (iblk2 V c 1 t) (iblk2 V c 2 t) (iblk2 V c 3 t) (iblk2 V c 4 t) (ix2 p q)
    = outArr V c (((cfg2.win 5).blk t).view.emb (ix2 p q))
  refine (Rows.final_apply _ _ _ _ _ p q).trans ?_
  -- the four windows that are their whole arrays
  have hop : (iblk2 V c 1 t : S10000x128.Idx → EReal) = V c main_v5 := funext fun y => by
    show V c main_v5 (((cfg2.win 1).blk t).view.emb y) = V c main_v5 y
    refine congrArg (V c main_v5) (funext fun a => Fin.ext ?_)
    match a with
    | ⟨0, _⟩ => show win2_1.index t (0 : Fin 2) * 10000 + 1 * (y 0).val = (y 0).val; omega
    | ⟨1, _⟩ => show win2_1.index t (1 : Fin 2) * 128 + 1 * (y 1).val = (y 1).val; omega
  have hb : (iblk2 V c 2 t : S1x128.Idx → EReal) = V c main_v2 := funext fun y => by
    show V c main_v2 (((cfg2.win 2).blk t).view.emb y) = V c main_v2 y
    refine congrArg (V c main_v2) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hwl : (iblk2 V c 3 t : S128x10.Idx → EReal) = V c main_arg8 := funext fun y => by
    show V c main_arg8 (((cfg2.win 3).blk t).view.emb y) = V c main_arg8 y
    refine congrArg (V c main_arg8) (funext fun a => Fin.ext ?_)
    match a with
    | ⟨0, _⟩ => show win2_3.index t (0 : Fin 2) * 128 + 1 * (y 0).val = (y 0).val; omega
    | ⟨1, _⟩ => show win2_3.index t (1 : Fin 2) * 10 + 1 * (y 1).val = (y 1).val; omega
  have hbl : (iblk2 V c 4 t : S1x10.Idx → EReal) = V c main_v3 := funext fun y => by
    show V c main_v3 (((cfg2.win 4).blk t).view.emb y) = V c main_v3 y
    refine congrArg (V c main_v3) (funext fun a => Fin.ext ?_)
    match a with
    | ⟨0, _⟩ => show win2_4.index t (0 : Fin 2) * 1 + 1 * (y 0).val = (y 0).val; omega
    | ⟨1, _⟩ => show win2_4.index t (1 : Fin 2) * 10 + 1 * (y 1).val = (y 1).val; omega
  unfold outArr
  refine logSoftmaxRow_congr (funext fun c' => ?_) (Fin.ext ?_)
  · refine congrArg₂ (· + ·) (nextRow_congr (funext fun j => ?_) (funext fun j => funext fun k => congrFun hop (ix2 j k))
      (funext fun k => congrFun hb (ix2 0 k)) hwl rfl) (congrFun hbl (ix2 0 c'))
    -- row `p` of the adjacency block is row `1000·t + p` of the adjacency copy, where the result's row sits
    show V c main_v4_1 (((cfg2.win 0).blk t).view.emb (ix2 p j)) = V c main_v4_1 (ix2 _ j)
    refine congrArg (V c main_v4_1) (funext fun a => Fin.ext ?_)
    match a with
    | ⟨0, _⟩ => show win2_0.index t (0 : Fin 2) * 1000 + 1 * p.val = win2_5.index t (0 : Fin 2) * 1000 + 1 * p.val; omega
    | ⟨1, _⟩ => show win2_0.index t (1 : Fin 2) * 10000 + 1 * j.val = j.val; omega
  · show q.val = win2_5.index t (1 : Fin 2) * 10 + 1 * q.val; omega

/-- An index of the array is in point `t`'s block iff each coordinate is in the block's range on its axis. -/
theorem mem_blk5 (t : Fin cfg2.N) (i : S10000x10.Idx) :
    i ∈ ((cfg2.win 5).blk t).view.set ↔ ∀ a : Fin 2, win2_5.index t a * S1000x10.size a ≤ (i a).val ∧ (i a).val < win2_5.index t a * S1000x10.size a + S1000x10.size a := by
  show i ∈ ((View.whole main_v6).slice (win2_5.rect t)).set ↔ _
  rw [View.set_slice_whole, Rect.mem_set_unit]
  exact Iff.rfl

/-- The 10 row blocks tile the array: row `r` is in block `r / 1000`. -/
theorem cover5 (i : S10000x10.Idx) : ∃ t : Fin cfg2.N, (cfg2.win 5).flush t = true ∧ i ∈ ((cfg2.win 5).blk t).view.set := by
  have hi0 : (i 0).val < 10000 := (i 0).isLt
  have hi1 : (i 1).val < 10 := (i 1).isLt
  refine ⟨⟨(i 0).val / 1000, by show (i 0).val / 1000 < 10; omega⟩, flush2_5 _, ?_⟩
  rw [mem_blk5]
  obtain ⟨-, -, -, -, -, -, -, -, -, -, e50, e51⟩ := idx_facts ⟨(i 0).val / 1000, by show (i 0).val / 1000 < 10; omega⟩
  have e50' : win2_5.index ⟨(i 0).val / 1000, by show (i 0).val / 1000 < 10; omega⟩ (0 : Fin 2) = (i 0).val / 1000 := e50
  intro a
  match a with
  | ⟨0, _⟩ => show win2_5.index _ (0 : Fin 2) * 1000 ≤ (i 0).val ∧ (i 0).val < win2_5.index _ (0 : Fin 2) * 1000 + 1000; omega
  | ⟨1, _⟩ => show win2_5.index _ (1 : Fin 2) * 10 ≤ (i 1).val ∧ (i 1).val < win2_5.index _ (1 : Fin 2) * 10 + 10; omega

/-- After the launch the result array is `outArr` of the arrays the launch found. -/
theorem final5 (c : Dev nD) : (dat2 V c).arrAt 5 cfg2.N = outArr V c :=
  (dat2 V c).arrAt_eq_of_cover 5 (outArr V c) (fun t _ => flushed5_eq V c t) cover5

end Cert.KernelIdeal.Blocks2

end
-- ==== Proof.KernelChain.lean ====
/-
  Through the three launches: what the result buffer holds when @main returns.

  The buffer contents at the four boundaries of @main are a chain. The host stretch reshapes each bias vector
  `[n]` into a row `[1, n]` and touches nothing else. The first launch leaves the next layer's operand
  `z1 = max (adj · (x · W1) + b1) 0 · W2` and a copy of the adjacency; the second reads that copy and `z1` and
  leaves `z2 = max (adj · z1 + b2) 0 · W3`; the third reads the copy and `z2` and leaves the row-wise log-softmax
  of `max (adj · z2 + b3) 0 · Wl + bl`. A launch changes only the arrays of its own result windows, so every
  operand a later launch reads is either an earlier launch's result or what the host stretch left, and both walk
  back to the launch memory: the result is the specification's function of the ten argument arrays.
-/
import proofs.«125264_g22127671509522_cont_8to1_1214_8_alg».proof.Proof.Gen.KernelIdeal.Frame
import proofs.«125264_g22127671509522_cont_8to1_1214_8_alg».proof.Proof.KernelBlocks0
import proofs.«125264_g22127671509522_cont_8to1_1214_8_alg».proof.Proof.KernelBlocks1
import proofs.«125264_g22127671509522_cont_8to1_1214_8_alg».proof.Proof.KernelBlocks2
import proofs.«125264_g22127671509522_cont_8to1_1214_8_alg».proof.Proof.GcnSpec
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-! ## The ten argument arrays at launch -/

abbrev aX : Gcn.Mat 10000 128 := m ((c : Thread nD τ).loc main_arg0)
abbrev aAdj : Gcn.Mat 10000 10000 := m ((c : Thread nD τ).loc main_arg1)
abbrev aW1 : Gcn.Mat 128 128 := m ((c : Thread nD τ).loc main_arg2)
abbrev aB1 : Gcn.Vct 128 := m ((c : Thread nD τ).loc main_arg3)
abbrev aW2 : Gcn.Mat 128 128 := m ((c : Thread nD τ).loc main_arg4)
abbrev aB2 : Gcn.Vct 128 := m ((c : Thread nD τ).loc main_arg5)
abbrev aW3 : Gcn.Mat 128 128 := m ((c : Thread nD τ).loc main_arg6)
abbrev aB3 : Gcn.Vct 128 := m ((c : Thread nD τ).loc main_arg7)
abbrev aWl : Gcn.Mat 128 10 := m ((c : Thread nD τ).loc main_arg8)
abbrev aBl : Gcn.Vct 10 := m ((c : Thread nD τ).loc main_arg9)

/-! ## After the host stretch: the arguments as launched, each bias as a row -/

theorem V1_arg0 : (V1 m ρ c main_arg0 : Gcn.Mat 10000 128) = aX m c := by
  dsimp only [V1, W1, hostOps0]; after_results
theorem V1_arg1 : (V1 m ρ c main_arg1 : Gcn.Mat 10000 10000) = aAdj m c := by
  dsimp only [V1, W1, hostOps0]; after_results
theorem V1_arg2 : (V1 m ρ c main_arg2 : Gcn.Mat 128 128) = aW1 m c := by
  dsimp only [V1, W1, hostOps0]; after_results
theorem V1_arg4 : (V1 m ρ c main_arg4 : Gcn.Mat 128 128) = aW2 m c := by
  dsimp only [V1, W1, hostOps0]; after_results
theorem V1_arg6 : (V1 m ρ c main_arg6 : Gcn.Mat 128 128) = aW3 m c := by
  dsimp only [V1, W1, hostOps0]; after_results
theorem V1_arg8 : (V1 m ρ c main_arg8 : Gcn.Mat 128 10) = aWl m c := by
  dsimp only [V1, W1, hostOps0]; after_results
theorem V1_v0 : (V1 m ρ c main_v0 : Gcn.Mat 1 128) = shapeCast S1x128 (aB1 m c) shapeCasts_S128_S1x128 := by
  dsimp only [V1, W1, hostOps0]; after_results; rfl
theorem V1_v1 : (V1 m ρ c main_v1 : Gcn.Mat 1 128) = shapeCast S1x128 (aB2 m c) shapeCasts_S128_S1x128 := by
  dsimp only [V1, W1, hostOps0]; after_results; rfl
theorem V1_v2 : (V1 m ρ c main_v2 : Gcn.Mat 1 128) = shapeCast S1x128 (aB3 m c) shapeCasts_S128_S1x128 := by
  dsimp only [V1, W1, hostOps0]; after_results; rfl
theorem V1_v3 : (V1 m ρ c main_v3 : Gcn.Mat 1 10) = shapeCast S1x10 (aBl m c) shapeCasts_S10_S1x10 := by
  dsimp only [V1, W1, hostOps0]; after_results; rfl

/-- A vector recast as a row reads the vector along the row. -/
theorem row_b1 (k : Fin 128) : V1 m ρ c main_v0 (ix2 0 k) = aB1 m c (ix1 k) := by
  rw [V1_v0]; exact shapeCast_a_1a_apply _ _ 0 k
theorem row_b2 (k : Fin 128) : V1 m ρ c main_v1 (ix2 0 k) = aB2 m c (ix1 k) := by
  rw [V1_v1]; exact shapeCast_a_1a_apply _ _ 0 k
theorem row_b3 (k : Fin 128) : V1 m ρ c main_v2 (ix2 0 k) = aB3 m c (ix1 k) := by
  rw [V1_v2]; exact shapeCast_a_1a_apply _ _ 0 k
theorem row_bl (k : Fin 10) : V1 m ρ c main_v3 (ix2 0 k) = aBl m c (ix1 k) := by
  rw [V1_v3]; exact shapeCast_a_1a_apply _ _ 0 k

/-! ## After the first launch -/

/-- The first launch leaves the specification's `z1`. -/
theorem z1_eq : (fun j k => V2 m ρ c main_v4_0 (ix2 j k))
    = Gcn.z1 (aX m c) (aAdj m c) (aW1 m c) (aB1 m c) (aW2 m c) := by
  have h : (V2 m ρ c main_v4_0 : S10000x128.Idx → EReal) = Blocks0.z1Arr (V1 m ρ) c :=
    (W2_arr m ρ c 5).trans (Blocks0.final5 (V1 m ρ) c)
  funext j k
  rw [h]
  show Gcn.nextRow (fun j' => V1 m ρ c main_arg1 (ix2 j j')) (Gcn.proj (V1 m ρ c main_arg0) (V1 m ρ c main_arg2))
      (fun k' => V1 m ρ c main_v0 (ix2 0 k')) (V1 m ρ c main_arg4) k = _
  rw [V1_arg0, V1_arg1, V1_arg2, V1_arg4, funext (row_b1 m ρ c)]
  rfl

/-- … and a copy of the adjacency. -/
theorem V2_adj : (V2 m ρ c main_v4_1 : Gcn.Mat 10000 10000) = aAdj m c :=
  ((W2_arr m ρ c 6).trans (Blocks0.final6 (V1 m ρ) c)).trans (V1_arg1 m ρ c)

theorem V2_v1 : V2 m ρ c main_v1 = V1 m ρ c main_v1 := W2_of_ne m ρ c main_v1 (by decide)
theorem V2_v2 : V2 m ρ c main_v2 = V1 m ρ c main_v2 := W2_of_ne m ρ c main_v2 (by decide)
theorem V2_v3 : V2 m ρ c main_v3 = V1 m ρ c main_v3 := W2_of_ne m ρ c main_v3 (by decide)
theorem V2_arg6 : V2 m ρ c main_arg6 = V1 m ρ c main_arg6 := W2_of_ne m ρ c main_arg6 (by decide)
theorem V2_arg8 : V2 m ρ c main_arg8 = V1 m ρ c main_arg8 := W2_of_ne m ρ c main_arg8 (by decide)

/-! ## After the second launch -/

/-- The second launch leaves the specification's `z2`. -/
theorem z2_eq : (fun j k => V3 m ρ c main_v5 (ix2 j k))
    = Gcn.z2 (aX m c) (aAdj m c) (aW1 m c) (aB1 m c) (aW2 m c) (aB2 m c) (aW3 m c) := by
  have h : (V3 m ρ c main_v5 : S10000x128.Idx → EReal) = Blocks1.z2Arr (V2 m ρ) c :=
    (W3_arr m ρ c 4).trans (Blocks1.final4 (V2 m ρ) c)
  funext j k
  rw [h]
  show Gcn.nextRow (fun j' => V2 m ρ c main_v4_1 (ix2 j j')) (fun j' k' => V2 m ρ c main_v4_0 (ix2 j' k'))
      (fun k' => V2 m ρ c main_v1 (ix2 0 k')) (V2 m ρ c main_arg6) k = _
  rw [z1_eq, V2_adj, V2_v1, V2_arg6, V1_arg6, funext (row_b2 m ρ c)]
  rfl

/-- The adjacency's copy is an operand of the second launch, which leaves it as found. -/
theorem V3_adj : (V3 m ρ c main_v4_1 : Gcn.Mat 10000 10000) = aAdj m c :=
  ((W3_arr m ρ c 0).trans (((dat1 (V2 m ρ) c).arrAt_in 0 rfl _).trans (A_eq1 (V2 m ρ) c 0))).trans (V2_adj m ρ c)

theorem V3_v2 : V3 m ρ c main_v2 = V1 m ρ c main_v2 := (W3_of_ne m ρ c main_v2 (by decide)).trans (V2_v2 m ρ c)
theorem V3_v3 : V3 m ρ c main_v3 = V1 m ρ c main_v3 := (W3_of_ne m ρ c main_v3 (by decide)).trans (V2_v3 m ρ c)
theorem V3_arg8 : (V3 m ρ c main_arg8 : Gcn.Mat 128 10) = aWl m c :=
  ((W3_of_ne m ρ c main_arg8 (by decide)).trans (V2_arg8 m ρ c)).trans (V1_arg8 m ρ c)

/-! ## After the third launch -/

/-- When @main returns the result buffer holds the specification's function of the ten argument arrays. -/
theorem result_eq : (W4 m ρ c (Proc.devRef .tc main_v6) : Gcn.Mat 10000 10)
    = Gcn.outArr (aX m c) (aAdj m c) (aW1 m c) (aB1 m c) (aW2 m c) (aB2 m c) (aW3 m c) (aB3 m c) (aWl m c) (aBl m c) := by
  have h : (W4 m ρ c (Proc.devRef .tc main_v6) : S10000x10.Idx → EReal) = Blocks2.outArr (V3 m ρ) c :=
    (W4_arr m ρ c 5).trans (Blocks2.final5 (V3 m ρ) c)
  rw [h]
  funext i
  obtain ⟨r, cc, rfl⟩ : ∃ (r : Fin 10000) (cc : Fin 10), i = ix2 r cc := ⟨i 0, i 1, eq_ix2 i⟩
  show Gcn.logSoftmaxRow (fun c' => Gcn.nextRow (fun j => V3 m ρ c main_v4_1 (ix2 r j)) (fun j k => V3 m ρ c main_v5 (ix2 j k))
      (fun k => V3 m ρ c main_v2 (ix2 0 k)) (V3 m ρ c main_arg8) c' + V3 m ρ c main_v3 (ix2 0 c')) cc = _
  rw [z2_eq, V3_adj, V3_v2, V3_v3, V3_arg8, funext (row_b3 m ρ c)]
  exact congrArg (fun ℓ => Gcn.logSoftmaxRow ℓ cc) (funext fun c' => congrArg (_ + ·) (row_bl m ρ c c'))

end Cert.KernelIdeal.Chain

end
-- ==== Proof.lean ====
/-
  A dense graph-convolution network on the device against its array-language reference, over the extended reals.

  Both programs compute, from node features `x : [10000, 128]`, a dense adjacency `adj : [10000, 10000]`, three
  hidden weight matrices and biases and a final linear layer,
      h1 = max (adj · (x · W1) + b1) 0,   h2 = max (adj · (h1 · W2) + b2) 0,   h3 = max (adj · (h2 · W3) + b3) 0,
      out = log_softmax (h3 · Wl + bl)   along each node's ten classes.
  The reference does it with whole-array operations. The device program does it in three launches over blocks of
  rows of the adjacency: the first (25 blocks of 400 rows) builds `x · W1` and stores `h1 · W2` together with a
  copy of the adjacency in a shorter float format; the second and third (10 blocks of 1000 rows) read that copy,
  the second storing `h2 · W3`, the third the log-softmax. Over the extended reals a change of float format is
  the identity, a matrix product on either side is the plain sum over the contracted coordinate, and a node's
  entries depend on the adjacency only through the node's own row — so the block of rows a launch works on
  computes, row by row, what the whole-array operation computes, in the same order of operations: no regrouping
  of sums, and no law that would need the inputs to be finite.

  The frames of the two device programs are the generated ones; the reference's frame is its run with the result
  dropped. No operation of the device program was rewritten to idealize it, so that claim is trivial. For the
  value claim both runs end with the result at ONE function of the ten argument arrays (GcnSpec.lean): the
  device program's through the contents of its buffers at the four boundaries of @main (KernelRun.lean,
  KernelBlocks0–2.lean over KernelRows.lean, KernelChain.lean), the reference's one host operation at a time
  (RefRun.lean, RefRead.lean, RefSide.lean).
-/
import proofs.«125264_g22127671509522_cont_8to1_1214_8_alg».proof.Defs
import proofs.«125264_g22127671509522_cont_8to1_1214_8_alg».proof.Proof.Gen.Kernel
import proofs.«125264_g22127671509522_cont_8to1_1214_8_alg».proof.Proof.Gen.Kernel.Skeleton
import proofs.«125264_g22127671509522_cont_8to1_1214_8_alg».proof.Proof.Gen.Kernel.Launch
import proofs.«125264_g22127671509522_cont_8to1_1214_8_alg».proof.Proof.Gen.Kernel.Points
import proofs.«125264_g22127671509522_cont_8to1_1214_8_alg».proof.Proof.Gen.Kernel.Frame
import proofs.«125264_g22127671509522_cont_8to1_1214_8_alg».proof.Proof.Gen.KernelIdeal
import proofs.«125264_g22127671509522_cont_8to1_1214_8_alg».proof.Proof.Gen.KernelIdeal.Skeleton
import proofs.«125264_g22127671509522_cont_8to1_1214_8_alg».proof.Proof.Gen.KernelIdeal.Launch
import proofs.«125264_g22127671509522_cont_8to1_1214_8_alg».proof.Proof.Gen.KernelIdeal.Points
import proofs.«125264_g22127671509522_cont_8to1_1214_8_alg».proof.Proof.Gen.KernelIdeal.Frame
import proofs.«125264_g22127671509522_cont_8to1_1214_8_alg».proof.Proof.Gen.ReferenceIdeal
import proofs.«125264_g22127671509522_cont_8to1_1214_8_alg».proof.Proof.Gen.Pre_finite_inputs
import proofs.«125264_g22127671509522_cont_8to1_1214_8_alg».proof.Proof.RefRun
import proofs.«125264_g22127671509522_cont_8to1_1214_8_alg».proof.Proof.RefRead
import proofs.«125264_g22127671509522_cont_8to1_1214_8_alg».proof.Proof.RefSide
import proofs.«125264_g22127671509522_cont_8to1_1214_8_alg».proof.Proof.KernelRun
import proofs.«125264_g22127671509522_cont_8to1_1214_8_alg».proof.Proof.KernelChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the specification's function of the argument arrays, and the argument arrays
    of the two memories agree. -/
theorem algebraic : Cert.algebraic_KernelIdeal_ReferenceIdeal := by
  intro m ρ m' ρ' _ hagree
  refine ⟨fun c => Cert.Gcn.outArr (Cert.KernelIdeal.Chain.aX m c) (Cert.KernelIdeal.Chain.aAdj m c)
      (Cert.KernelIdeal.Chain.aW1 m c) (Cert.KernelIdeal.Chain.aB1 m c) (Cert.KernelIdeal.Chain.aW2 m c)
      (Cert.KernelIdeal.Chain.aB2 m c) (Cert.KernelIdeal.Chain.aW3 m c) (Cert.KernelIdeal.Chain.aB3 m c)
      (Cert.KernelIdeal.Chain.aWl m c) (Cert.KernelIdeal.Chain.aBl m c), ?_, ?_⟩
  · exact (θ_run Cert.KernelIdeal.defs _ _).mono
      (fun r h c => ⟨(h c).1.trans (Cert.KernelIdeal.Chain.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v22_eq, Cert.ReferenceIdeal.RefValue.stage_eq_spec]
    obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
